-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S1024x1024 : Shape := ⟨2, ![1024, 1024]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S32x4096x1024 .f32) (main_arg1 : FVec F S1024x1024 .f32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S32x4096x1024 : Shape := ⟨3, ![32, 4096, 1024]⟩
abbrev S1024x1024 : Shape := ⟨2, ![1024, 1024]⟩
abbrev S131072x1024 : Shape := ⟨2, ![131072, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32x4096x1024, .f32⟩
  | .hbm, ⟨1, _⟩ => ⟨S1024x1024, .f32⟩
  | .hbm, ⟨2, _⟩ => ⟨S131072x1024, .f32⟩
  | .hbm, ⟨3, _⟩ => ⟨S131072x1024, .f32⟩
  | .hbm, ⟨4, _⟩ => ⟨S32x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x4096x1024_S131072x1024 : S32x4096x1024.ShapeCasts S131072x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S131072x1024_S32x4096x1024 : S131072x1024.ShapeCasts S32x4096x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S131072x1024.size a
  hwx0_0 : ∀ i : grid0.Coords, EltTy.bits .f32 = 32 ∨ (Rect.block (s := S131072x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S131072x1024.size a
  hwx0_2 : ∀ i : grid0.Coords, EltTy.bits .f32 = 32 ∨ (Rect.block (s := S131072x1024) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x1024 : Shape := ⟨3, ![32, 4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S1024x1024, .f32⟩
  | .hbm, ⟨2, _⟩ => ⟨S1024x1024, .f32⟩
  | .hbm, ⟨3, _⟩ => ⟨S32x4096x1024, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S32x4096x1024_S1024x1024_S32x4096x1024_2_1_01_0_n_n_wf : DotDims.WF S32x4096x1024 S1024x1024 S32x4096x1024 [2] [1] [0, 1] [0] [] []

variable [Facts₀]

def dot_S32x4096x1024_S1024x1024_S32x4096x1024_2_1_01_0_n_n : DotDims S32x4096x1024 S1024x1024 S32x4096x1024 where
  lhsContracting := [2]
  rhsContracting := [1]
  lhsNonContracting := [0, 1]
  rhsNonContracting := [0]
  lhsBatch := []
  rhsBatch := []
  wf := dot_S32x4096x1024_S1024x1024_S32x4096x1024_2_1_01_0_n_n_wf

class Facts : Prop extends Facts₀ where

variable [Facts]
-- ==== Proof.SignedSum.lean ====
/-
  The function both programs compute, over the extended reals.

  A batch of 32 × 4096 rows of length 1024 is multiplied against the SIGNS of a 1024 × 1024 weight matrix:
  entry (b, s, o) of the result is the sum over k of x[b, s, k] · sign(w[o, k]), with sign(w) ∈ {-1, 0, 1} by the
  order (and -1, 1 at the two infinities). One program flattens the batch to 131072 rows, forms the products row by
  row, and un-flattens; the other contracts the three-axis array directly. Flattening is row-major, so row
  b · 4096 + s of the flattened array is row (b, s) of the batch, and the two are one function: `out_apply`.
-/
import Idealize.ShloMosaic.PureOps.Ideal
import Idealize.ShloMosaic.Lib.ValueIdx
import Idealize.ShloMosaic.Lib.Pipeline.Value

noncomputable section

namespace Cert.SignedSum

open Idealize.ShloMosaic Idealize.ShloMosaic.ValueIdx

/-- The batch of rows, the flattened rows, and the square weight matrix. -/
abbrev Batch : Shape := ⟨3, ![32, 4096, 1024]⟩
abbrev Rows : Shape := ⟨2, ![131072, 1024]⟩
abbrev Square : Shape := ⟨2, ![1024, 1024]⟩

/-- Row `r` against the signs of weight row `o`: the sum over `k` of `x[r, k] · sign (w[o, k])`. -/
def rowsOut (x : Rows.Idx → EReal) (w : Square.Idx → EReal) : Rows.Idx → EReal :=
  fun j => ∑ k : Fin 1024, x (ix2 (j 0) k) * Ideal.sign (w (ix2 (j 1) k))

/-- Entry `(r, o)` of the row products, with the coordinates named. -/
theorem rowsOut_apply (x : Rows.Idx → EReal) (w : Square.Idx → EReal) (r : Fin 131072) (o : Fin 1024) :
    rowsOut x w (ix2 r o) = ∑ k : Fin 1024, x (ix2 r k) * Ideal.sign (w (ix2 o k)) := rfl

/-- The whole result: flatten the batch, multiply row by row, un-flatten. -/
def out (x : Batch.Idx → EReal) (w : Square.Idx → EReal) (hflat : Batch.ShapeCasts Rows) (hback : Rows.ShapeCasts Batch) :
    Batch.Idx → EReal :=
  shapeCast Batch (rowsOut (shapeCast Rows x hflat) w) hback

/-- Entry `(b, s, o)` of the result is the sum over `k` of `x[b, s, k] · sign (w[o, k])`: the flattened row
    `b · 4096 + s` is the batch's row `(b, s)`, both ways. -/
theorem out_apply (x : Batch.Idx → EReal) (w : Square.Idx → EReal) (hflat : Batch.ShapeCasts Rows) (hback : Rows.ShapeCasts Batch)
    (b : Fin 32) (s : Fin 4096) (o : Fin 1024) :
    out x w hflat hback (ix3 b s o) = ∑ k : Fin 1024, x (ix3 b s k) * Ideal.sign (w (ix2 o k)) := by
  have hr : b.val * 4096 + s.val < 131072 := by have := b.isLt; have := s.isLt; omega
  unfold out
  rw [shapeCast_apply (rowsOut (shapeCast Rows x hflat) w) hback (ix3 b s o) (ix2 ⟨b.val * 4096 + s.val, hr⟩ o)
    (by rw [Shape.rowMajor_val_two, Shape.rowMajor_val_three]; rfl)]
  unfold rowsOut
  refine Finset.sum_congr rfl fun k _ => ?_
  rw [shapeCast_apply x hflat (ix2 ⟨b.val * 4096 + s.val, hr⟩ k) (ix3 b s k)
    (by rw [Shape.rowMajor_val_two, Shape.rowMajor_val_three]; rfl)]

end Cert.SignedSum

end
-- ==== Proof.ReferenceSum.lean ====
/-
  The reference computes the signed sum.

  The reference takes the sign of every weight and contracts the batch's last axis with the weights' last axis. Read at
  entry (b, s, o) that contraction is the sum over k of x[b, s, k] times the sign of w[o, k] — the entry of the
  specification (`Cert.SignedSum.out_apply`).
-/
import proofs.«116159_j51719996178704_1_alg».proof.Proof.Gen.ReferenceIdeal.Read
import proofs.«116159_j51719996178704_1_alg».proof.Proof.SignedSum
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx
open Cert.SignedSum

/-- The contraction's left operand index at entry `(b, s, o)` and position `k` is `(b, s, k)`. -/
theorem left_index (b : Fin 32) (s : Fin 4096) (o k : Fin 1024) : Read.lidx_main_v1 (ix3 b s o) k = ix3 b s k :=
  funext fun a => Fin.ext (by match a with | ⟨0, _⟩ => rfl | ⟨1, _⟩ => rfl | ⟨2, _⟩ => rfl)

/-- Its right operand index is `(o, k)`: weight row `o`. -/
theorem right_index (b : Fin 32) (s : Fin 4096) (o k : Fin 1024) : Read.ridx_main_v1 (ix3 b s o) k = ix2 o k :=
  funext fun a => Fin.ext (by match a with | ⟨0, _⟩ => rfl | ⟨1, _⟩ => rfl)

/-- The reference's result, as a function of its two arguments, is the specification. -/
theorem result_eq (x : (⟨S32x4096x1024, .f32⟩ : BufTy).Contents (Elt Ideal)) (w : (⟨S1024x1024, .f32⟩ : BufTy).Contents (Elt Ideal))
    (hflat : Batch.ShapeCasts Rows) (hback : Rows.ShapeCasts Batch) :
    Read.val_main_v1 (F := Ideal) x w = out x w hflat hback := by
  funext i
  obtain ⟨b, s, o, rfl⟩ : ∃ (b : Fin 32) (s : Fin 4096) (o : Fin 1024), i = ix3 b s o := ⟨i 0, i 1, i 2, eq_ix3 i⟩
  rw [Read.val_main_v1_apply, out_apply]
  refine Finset.sum_congr rfl fun k _ => ?_
  rw [Read.val_main_v0_apply, Ideal.hostUnary_sign_def, left_index, right_index]

end Cert.ReferenceIdeal.RefValue

end
-- ==== Proof.BodyProduct.lean ====
/-
  What the kernel body computes from one block of rows and the weights.

  The body loads a 1024 × 1024 block of flattened rows and the whole 1024 × 1024 weight matrix, replaces every weight
  by its sign — the select "where |w| > 0 take -1 below zero and 1 otherwise, elsewhere w itself", which is the sign
  of w on every extended real, zero and the infinities included — and contracts the LAST axis of the block with the
  LAST axis of the signs into a zero accumulator. The two narrowings to a shorter float format change nothing over the
  extended reals. So entry (p, q) of what it stores is the sum over k of block[p, k] · sign (w[q, k]).
-/
import proofs.«116159_j51719996178704_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.BodyValue

open Cert.KernelIdeal Cert.KernelIdeal.Gen Idealize.ShloMosaic Idealize.ShloMosaic.TcCoe Idealize.ShloMosaic.ValueIdx

/-- The contraction's left operand index at entry `j`: row `j 0` of the block, -/
theorem left_row (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
/-- at the contracted position. -/
theorem left_col (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
/-- The right operand index: weight row `j 1`, -/
theorem right_row (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
/-- at the contracted position too: both operands are contracted along their last axis. -/
theorem right_col (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- Entry `(p, q)` of what the body stores: the sum over `k` of `rows[p, k] · sign (w[q, k])`. -/
theorem body_apply (rows w : Vec Ideal S1024x1024 .f32) (p q : Fin 1024) :
    k0_pay1 (F := Ideal) rows w (ix2 p q) = ∑ k : Fin 1024, rows (ix2 p k) * Ideal.sign (w (ix2 q k)) := by
  unfold k0_pay1
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun a => Fin.ext (by
      match a with
      | ⟨0, _⟩ => exact left_row _ _
      | ⟨1, _⟩ => exact (left_col _ _).trans hk)
  have er : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun a => Fin.ext (by
      match a with
      | ⟨0, _⟩ => exact right_row _ _
      | ⟨1, _⟩ => exact (right_col _ _).trans hk)
  rw [el, er, truncf_apply, truncf_apply, shapeCast_self]
  exact congrArg (rows (ix2 p k) * ·) (Ideal.jnp_sign_eq_sign_f32 (w (ix2 q k)))

end Cert.KernelIdeal.BodyValue

end
-- ==== Proof.RowBlocks.lean ====
/-
  What the array of output rows holds after all 128 grid points have run.

  Grid point t loads rows 1024·t … 1024·t + 1023 of the flattened batch together with the whole weight matrix, and
  writes rows 1024·t … 1024·t + 1023 of the output. By `body_apply`, entry (p, q) of the block it writes is the sum over
  k of row 1024·t + p at k times the sign of w[q, k] — block t of the whole-array function `rowsOut` of the flattened
  batch and the weights. The 128 blocks tile the 131072 rows (row r lies in block r / 1024), so the array ends holding
  `rowsOut`.
-/
import proofs.«116159_j51719996178704_1_alg».proof.Proof.Gen.KernelIdeal.Frame
import proofs.«116159_j51719996178704_1_alg».proof.Proof.BodyProduct
import proofs.«116159_j51719996178704_1_alg».proof.Proof.SignedSum
import Idealize.ShloMosaic.Lib.Pipeline.Value

set_option maxRecDepth 16384

noncomputable section

namespace Cert.KernelIdeal.RowBlocks

open Cert.KernelIdeal Cert.KernelIdeal.Gen Idealize.ShloMosaic Idealize.ShloMosaic.TcCoe Idealize.ShloMosaic.ValueIdx
open Idealize.SL.Sem
open Cert.SignedSum Cert.KernelIdeal.BodyValue

variable (m : (ℓ : Loc nD τ sig) → Buf (Elt Ideal) ℓ)

/-- The body loads and stores from the origin of its blocks. -/
theorem origin : (![0, 0] : Fin 2 → Nat) = fun _ => 0 := funext fun a => by fin_cases a <;> rfl

/-- Where each window's block sits at grid point `t`: the rows' and the output's at block row `t`, column block 0; the
    weights' always at the one block there is. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- If row `j 0` of the loaded block of rows is row `i 0` of `X` and row `j 1` of the loaded weights is row `i 1` of `W`,
    then entry `j` of what the body stores is entry `i` of `rowsOut X W`. -/
theorem stored_entry (X : Rows.Idx → EReal) (W : Square.Idx → EReal) (x0 w0 : Vec Ideal S1024x1024 .f32)
    (j : S1024x1024.Idx) (i : Rows.Idx)
    (hx : ∀ k : Fin 1024, x0 (ix2 (j 0) k) = X (ix2 (i 0) k))
    (hw : ∀ k : Fin 1024, w0 (ix2 (j 1) k) = W (ix2 (i 1) k)) :
    k0_pay1 (F := Ideal) x0 w0 j = rowsOut X W i := by
  refine (congrArg (k0_pay1 (F := Ideal) x0 w0) (eq_ix2 j)).trans ((body_apply x0 w0 (j 0) (j 1)).trans ?_)
  unfold rowsOut
  exact Finset.sum_congr rfl fun k _ => by rw [hx k, hw k]

/-- What grid point `t` writes back is block `t` of `rowsOut` of the flattened batch and the weights. -/
theorem written_block (c : Dev nD) (t : Fin cfg0.N) :
    (dats m 0 c).flushed 2 t = ((cfg0.win 2).blk t).view.read (Elt Ideal) (rowsOut (V m c main_v0) (V m c main_arg1)) := by
  show (cfg0.win 2).cut (grid0.coords t) ((dats m 0 c).after 2 t) = _
  rw [after0_2]
  unfold out0_2
  rw [View.canon_unit_zero origin]
  simp only [View.ld_unit_zero (S := S1024x1024) origin]
  obtain ⟨e0, e1, e2, e3, e4, e5⟩ := block_index t
  funext j
  refine stored_entry (V m c main_v0) (V m c main_arg1) (iblk m c 0 t) (iblk m c 1 t) j (((cfg0.win 2).blk t).view.emb j) ?_ ?_
  · intro k
    show V m c main_v0 (((cfg0.win 0).blk t).view.emb (ix2 (j 0) k)) = V m c main_v0 (ix2 ((((cfg0.win 2).blk t).view.emb j) 0) k)
    refine congrArg (V m c main_v0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · intro k
    show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 1024 + 1 * k.val = k.val; omega

/-- An index of the output array is in point `t`'s block iff each coordinate is in the block's range on its axis. -/
theorem mem_block (t : Fin cfg0.N) (i : S131072x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every row of the output is written: row `r` by grid point `r / 1024`. -/
theorem rows_covered (i : S131072x1024.Idx) :
    ∃ t : Fin cfg0.N, (cfg0.win 2).flush t = true ∧ i ∈ ((cfg0.win 2).blk t).view.set := by
  have hi0 : (i 0).val < 131072 := (i 0).isLt
  have hi1 : (i 1).val < 1024 := (i 1).isLt
  have hN : cfg0.N = 128 := N_0
  obtain ⟨t, ht⟩ : ∃ t : Fin cfg0.N, t.val = (i 0).val / 1024 := ⟨⟨(i 0).val / 1024, by omega⟩, rfl⟩
  obtain ⟨-, -, -, -, e4, e5⟩ := block_index t
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the run: `rowsOut` of the flattened batch and the weights as the region finds them. -/
theorem rows_final (c : Dev nD) :
    (dats m 0 c).arrAt 2 cfg0.N = rowsOut (V m c main_v0) (V m c main_arg1) :=
  (dats m 0 c).arrAt_eq_of_cover 2 (rowsOut (V m c main_v0) (V m c main_arg1)) (fun t _ => written_block m c t) rows_covered

end Cert.KernelIdeal.RowBlocks

end
-- ==== Proof.KernelRun.lean ====
/-
  The kernel program's result, as a function of its two arguments.

  The program flattens the batch to 131072 rows before the grid runs and un-flattens the array of output rows after it.
  The grid leaves that array at `rowsOut` of the flattened batch and the weights (`rows_final`), so the program's result
  is the specification `out` of its arguments, and its arguments end as they began.
-/
import proofs.«116159_j51719996178704_1_alg».proof.Proof.RowBlocks
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.ShloMosaic.ValueIdx
open Idealize.SL.Sem Idealize.ShloMosaic.StableHlo
open Cert.SignedSum Cert.KernelIdeal.RowBlocks

variable (m : (ℓ : Loc nD τ sig) → Buf (Elt Ideal) ℓ) (ρ : Dev nD → PrngReg)

/-- The grid finds the batch flattened: the one host operation before it is the row-major reshape. -/
theorem flattened (c : Dev nD) (hflat : Batch.ShapeCasts Rows) :
    (V m c main_v0 : Rows.Idx → EReal) = shapeCast Rows (m ((c : Thread nD τ).loc main_arg0)) hflat := by
  show StableHlo.after hostOps0 (fun b => m (c, b)) (Proc.devRef .tc main_v0) = _
  after_results
  rfl

/-- The program's result is the array of output rows un-flattened: the one host operation after the grid is the
    row-major reshape back. -/
theorem unflattened (c : Dev nD) (hback : Rows.ShapeCasts Batch) :
    (Pipeline.afterTail₀ cfgs (dats m) 0 (V0 m) [hostOps1] c main_v2 : Batch.Idx → EReal)
      = shapeCast Batch ((dats m 0 c).arrAt 2 cfg0.N) hback := by
  unfold Pipeline.afterTail₀
  show StableHlo.after hostOps1 _ (Proc.devRef .tc main_v2) = _
  after_results
  exact congrArg (fun A => shapeCast Batch A hback) (Pipeline.withArrays_arr spec0 launch0.win.arr_inj c _ _ 2)

/-- So the result is the specification of the two arguments. -/
theorem result_eq (c : Dev nD) (hflat : Batch.ShapeCasts Rows) (hback : Rows.ShapeCasts Batch) :
    (Pipeline.afterTail₀ cfgs (dats m) 0 (V0 m) [hostOps1] c main_v2 : Batch.Idx → EReal)
      = out (m ((c : Thread nD τ).loc main_arg0)) (m ((c : Thread nD τ).loc main_arg1)) hflat hback := by
  rw [unflattened m c hback, rows_final m c, flattened m c hflat, V_main_arg1 m c]
  rfl

/-- Every weakly fair execution of the kernel program terminates with the result at the specification of the arguments
    and the arguments unchanged. -/
theorem run (hflat : Batch.ShapeCasts Rows) (hback : Rows.ShapeCasts Batch) :
    θ_run defs (onTc (τ := τ) (main (F := Ideal))) ⟨m, fun _ => 0, ρ⟩ fun r => ∀ c : Dev nD,
      r.2.mem ((c : Thread nD τ).loc main_v2) = out (m ((c : Thread nD τ).loc main_arg0)) (m ((c : Thread nD τ).loc main_arg1)) hflat hback
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (result_eq m c hflat hback),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.KernelRun

end
-- ==== Proof.lean ====
/-
  A batch of 32 × 4096 rows of length 1024 against the signs of a 1024 × 1024 weight matrix.

  Entry (b, s, o) of the result is the sum over k of x[b, s, k] · sign (w[o, k]). The kernel program flattens the batch to
  131072 rows, forms the products 1024 rows at a time over a grid of 128 points, each point contracting its block of
  rows with the signs of the weights along the last axis of both, and un-flattens; the reference contracts the three-axis
  batch with the signs directly. Over the extended reals the kernel's sign idiom (where |w| > 0 take -1 below zero and 1
  otherwise, elsewhere w itself) and the reference's sign are one function, the narrowings to a shorter float format are
  the identity, and both sums run over the same products in the same order, so the two results are equal index by
  index (`Cert.SignedSum.out`); no law that could fail at an infinity is used, and the finiteness of the inputs is
  never opened.

  The three frames: the two kernel programs' are their generated frame runs; the reference's is its generated run with
  the result dropped. The one rewrite of the idealization — 1.0 carrying the weight's sign bit read as the select of -1
  below zero and 1 otherwise — is that rule's statement at the weights' shape.
-/
import proofs.«116159_j51719996178704_1_alg».proof.Defs
import proofs.«116159_j51719996178704_1_alg».proof.Proof.Gen.Kernel
import proofs.«116159_j51719996178704_1_alg».proof.Proof.Gen.Kernel.Skeleton
import proofs.«116159_j51719996178704_1_alg».proof.Proof.Gen.Kernel.Launch
import proofs.«116159_j51719996178704_1_alg».proof.Proof.Gen.Kernel.Points
import proofs.«116159_j51719996178704_1_alg».proof.Proof.Gen.Kernel.Frame
import proofs.«116159_j51719996178704_1_alg».proof.Proof.Gen.KernelIdeal
import proofs.«116159_j51719996178704_1_alg».proof.Proof.Gen.KernelIdeal.Skeleton
import proofs.«116159_j51719996178704_1_alg».proof.Proof.Gen.KernelIdeal.Launch
import proofs.«116159_j51719996178704_1_alg».proof.Proof.Gen.KernelIdeal.Points
import proofs.«116159_j51719996178704_1_alg».proof.Proof.Gen.KernelIdeal.Frame
import proofs.«116159_j51719996178704_1_alg».proof.Proof.Gen.ReferenceIdeal
import proofs.«116159_j51719996178704_1_alg».proof.Proof.Gen.ReferenceIdeal.Run
import proofs.«116159_j51719996178704_1_alg».proof.Proof.Gen.ReferenceIdeal.Read
import proofs.«116159_j51719996178704_1_alg».proof.Proof.Gen.Pre_finite_inputs
import proofs.«116159_j51719996178704_1_alg».proof.Proof.SignedSum
import proofs.«116159_j51719996178704_1_alg».proof.Proof.ReferenceSum
import proofs.«116159_j51719996178704_1_alg».proof.Proof.KernelRun
import Idealize.ShloMosaic.Adequacy
import Idealize.ShloMosaic.Init

noncomputable section

namespace Cert.Proof

open Idealize.ShloMosaic Idealize.ShloMosaic.TcCoe Idealize.SL.Sem

/-- Flattening the batch to rows and back are row-major reshapes of equally many entries. -/
theorem flat : Cert.SignedSum.Batch.ShapeCasts Cert.SignedSum.Rows := by decide
theorem back : Cert.SignedSum.Rows.ShapeCasts Cert.SignedSum.Batch := by decide

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ledger's one entry: 1.0 with the weight's sign bit is -1 below zero and 1 otherwise. -/
theorem preserves : Cert.preserves_Kernel_KernelIdeal := IdealRules.sign_bit.statement Cert.KernelIdeal.S1024x1024 .f32

/-- Both programs end with the specification of their (agreeing) arguments as the result. -/
theorem algebraic : Cert.algebraic_KernelIdeal_ReferenceIdeal := by
  intro m ρ m' ρ' _ hagree
  refine ⟨fun c => Cert.SignedSum.out (m ((c : Thread Cert.KernelIdeal.nD Cert.KernelIdeal.τ).loc Cert.KernelIdeal.main_arg0))
      (m ((c : Thread Cert.KernelIdeal.nD Cert.KernelIdeal.τ).loc Cert.KernelIdeal.main_arg1)) flat back,
    Cert.KernelIdeal.KernelRun.run m ρ flat back, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq _ _ flat back, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
